-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S256x1 : Shape := ⟨2, ![256, 1]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S256x1 : S_.BroadcastsInDim S256x1 (![] : Fin 0 → Fin S256x1.rank)
  reducesTo_S256x1_S_d0_1 : S256x1.ReducesTo [0, 1] S_

variable [Facts]

def fn_part2 {F : FTy → Type} [FloatOps F] (main_arg7 : FVec F S256x1 .f32) (main_v33 : IVec S_ 1) : IVec S_ 1 :=
  let main_v34 : FVec F S256x1 .f32 := Host.absf main_arg7
  let main_cst_12 : FVec F S_ .f32 := constant S_ .f32 0x7F800000#32
  let main_v35 : FVec F S256x1 .f32 := broadcastInDim S256x1 ![] bcast_S_S256x1 main_cst_12
  let main_v36 : IVec S256x1 1 := cmpf .olt main_v34 main_v35
  let main_c_13 : IVec S_ 1 := constantI S_ 1 1#1
  let main_v37 : IVec S_ 1 := (fun x v => Host.reduce IntOp.andi x v reducesTo_S256x1_S_d0_1 h_S_) main_v36 main_c_13
  let main_v38 : IVec S_ 1 := andi main_v33 main_v37
  main_v38

def fn_part1 {F : FTy → Type} [FloatOps F] (main_arg4 : FVec F S256x1 .f32) (main_arg5 : FVec F S256x1 .f32) (main_arg6 : FVec F S256x1 .f32) (main_arg7 : FVec F S256x1 .f32) (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  let main_v19 : FVec F S256x1 .f32 := Host.absf main_arg4
  let main_cst_6 : FVec F S_ .f32 := constant S_ .f32 0x7F800000#32
  let main_v20 : FVec F S256x1 .f32 := broadcastInDim S256x1 ![] bcast_S_S256x1 main_cst_6
  let main_v21 : IVec S256x1 1 := cmpf .olt main_v19 main_v20
  let main_c_7 : IVec S_ 1 := constantI S_ 1 1#1
  let main_v22 : IVec S_ 1 := (fun x v => Host.reduce IntOp.andi x v reducesTo_S256x1_S_d0_1 h_S_) main_v21 main_c_7
  let main_v23 : IVec S_ 1 := andi main_v18 main_v22
  let main_v24 : FVec F S256x1 .f32 := Host.absf main_arg5
  let main_cst_8 : FVec F S_ .f32 := constant S_ .f32 0x7F800000#32
  let main_v25 : FVec F S256x1 .f32 := broadcastInDim S256x1 ![] bcast_S_S256x1 main_cst_8
  let main_v26 : IVec S256x1 1 := cmpf .olt main_v24 main_v25
  let main_c_9 : IVec S_ 1 := constantI S_ 1 1#1
  let main_v27 : IVec S_ 1 := (fun x v => Host.reduce IntOp.andi x v reducesTo_S256x1_S_d0_1 h_S_) main_v26 main_c_9
  let main_v28 : IVec S_ 1 := andi main_v23 main_v27
  let main_v29 : FVec F S256x1 .f32 := Host.absf main_arg6
  let main_cst_10 : FVec F S_ .f32 := constant S_ .f32 0x7F800000#32
  let main_v30 : FVec F S256x1 .f32 := broadcastInDim S256x1 ![] bcast_S_S256x1 main_cst_10
  let main_v31 : IVec S256x1 1 := cmpf .olt main_v29 main_v30
  let main_c_11 : IVec S_ 1 := constantI S_ 1 1#1
  let main_v32 : IVec S_ 1 := (fun x v => Host.reduce IntOp.andi x v reducesTo_S256x1_S_d0_1 h_S_) main_v31 main_c_11
  let main_v33 : IVec S_ 1 := andi main_v28 main_v32
  fn_part2 (F := F) main_arg7 main_v33

def fn {F : FTy → Type} [FloatOps F] (main_arg0 : FVec F S65536x256 .f32) (main_arg1 : FVec F S65536x256 .f32) (main_arg2 : FVec F S256x1 .f32) (main_arg3 : FVec F S256x1 .f32) (main_arg4 : FVec F S256x1 .f32) (main_arg5 : FVec F S256x1 .f32) (main_arg6 : FVec F S256x1 .f32) (main_arg7 : FVec F S256x1 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_v9 : FVec F S256x1 .f32 := Host.absf main_arg2
  let main_cst_2 : FVec F S_ .f32 := constant S_ .f32 0x7F800000#32
  let main_v10 : FVec F S256x1 .f32 := broadcastInDim S256x1 ![] bcast_S_S256x1 main_cst_2
  let main_v11 : IVec S256x1 1 := cmpf .olt main_v9 main_v10
  let main_c_3 : IVec S_ 1 := constantI S_ 1 1#1
  let main_v12 : IVec S_ 1 := (fun x v => Host.reduce IntOp.andi x v reducesTo_S256x1_S_d0_1 h_S_) main_v11 main_c_3
  let main_v13 : IVec S_ 1 := andi main_v8 main_v12
  let main_v14 : FVec F S256x1 .f32 := Host.absf main_arg3
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_arg4 main_arg5 main_arg6 main_arg7 main_v13 main_v16
-- ==== Kernel.lean ====
abbrev S65536x256 : Shape := ⟨2, ![65536, 256]⟩
abbrev S256x1 : Shape := ⟨2, ![256, 1]⟩
abbrev S1x256 : Shape := ⟨2, ![1, 256]⟩
abbrev S2048x256 : Shape := ⟨2, ![2048, 256]⟩
abbrev S2048 : Shape := ⟨1, ![2048]⟩
abbrev S2048x1 : Shape := ⟨2, ![2048, 1]⟩

abbrev nBuf : Space → Nat
  | .hbm => 16
  | .vmem => 12
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S256x1, .f32⟩
  | .hbm, ⟨3, _⟩ => ⟨S256x1, .f32⟩
  | .hbm, ⟨4, _⟩ => ⟨S256x1, .f32⟩
  | .hbm, ⟨5, _⟩ => ⟨S256x1, .f32⟩
  | .hbm, ⟨6, _⟩ => ⟨S256x1, .f32⟩
  | .hbm, ⟨7, _⟩ => ⟨S256x1, .f32⟩
  | .hbm, ⟨8, _⟩ => ⟨S256x1, .f32⟩
  | .hbm, ⟨9, _⟩ => ⟨S1x256, .f32⟩
  | .hbm, ⟨10, _⟩ => ⟨S256x1, .f32⟩
  | .hbm, ⟨11, _⟩ => ⟨S1x256, .f32⟩
  | .hbm, ⟨12, _⟩ => ⟨S1x256, .f32⟩
  | .hbm, ⟨13, _⟩ => ⟨S1x256, .f32⟩
  | .hbm, ⟨14, _⟩ => ⟨S65536x256, .f32⟩
  | .hbm, ⟨15, _⟩ => ⟨S65536x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S256x1_S1x256 : S256x1.ShapeCasts S1x256
  inb_S2048x256_S2048x256_0_0 : ∀ a, (![0, 0] : Fin 2 → Nat) a + S2048x256.size a ≤ S2048x256.size a
  h_S2048x256 : 0 < S2048x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  reduces_S2048x256_S2048 : S2048x256.Reduces [1] S2048
  shapeCasts_S2048_S2048x1 : S2048.ShapeCasts S2048x1
  broadcasts_S2048x1_S2048x256 : S2048x1.Broadcasts S2048x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S65536x256.size a
  hwx0_0 : ∀ i : grid0.Coords, EltTy.bits .f32 = 32 ∨ (Rect.block (s := S65536x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S65536x256.size a
  hwx0_1 : ∀ i : grid0.Coords, EltTy.bits .f32 = 32 ∨ (Rect.block (s := S65536x256) S2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x256.size a ≤ S65536x256.size a
  hwx0_6 : ∀ i : grid0.Coords, EltTy.bits .f32 = 32 ∨ (Rect.block (s := S65536x256) S2048x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x256.size a ≤ S65536x256.size a
  hwx0_7 : ∀ i : grid0.Coords, EltTy.bits .f32 = 32 ∨ (Rect.block (s := S65536x256) S2048x256.size (cc0_transform_7 i) (hinb0_7 i)).WholeWords (EltTy.packing .f32)

variable [Facts₀]

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S2048x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S2048x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S65536x256 : Shape := ⟨2, ![65536, 256]⟩
abbrev S256x1 : Shape := ⟨2, ![256, 1]⟩
abbrev S65536x1 : Shape := ⟨2, ![65536, 1]⟩
abbrev S256 : Shape := ⟨1, ![256]⟩
abbrev S1x256 : Shape := ⟨2, ![1, 256]⟩

abbrev nBuf : Space → Nat
  | .hbm => 24
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S256x1, .f32⟩
  | .hbm, ⟨3, _⟩ => ⟨S256x1, .f32⟩
  | .hbm, ⟨4, _⟩ => ⟨S256x1, .f32⟩
  | .hbm, ⟨5, _⟩ => ⟨S256x1, .f32⟩
  | .hbm, ⟨6, _⟩ => ⟨S256x1, .f32⟩
  | .hbm, ⟨7, _⟩ => ⟨S256x1, .f32⟩
  | .hbm, ⟨8, _⟩ => ⟨S256x1, .f32⟩
  | .hbm, ⟨9, _⟩ => ⟨S65536x1, .f32⟩
  | .hbm, ⟨10, _⟩ => ⟨S256x1, .f32⟩
  | .hbm, ⟨11, _⟩ => ⟨S65536x1, .f32⟩
  | .hbm, ⟨12, _⟩ => ⟨S65536x256, .f32⟩
  | .hbm, ⟨13, _⟩ => ⟨S65536x256, .f32⟩
  | .hbm, ⟨14, _⟩ => ⟨S256, .f32⟩
  | .hbm, ⟨15, _⟩ => ⟨S1x256, .f32⟩
  | .hbm, ⟨16, _⟩ => ⟨S65536x256, .f32⟩
  | .hbm, ⟨17, _⟩ => ⟨S65536x256, .f32⟩
  | .hbm, ⟨18, _⟩ => ⟨S65536x256, .f32⟩
  | .hbm, ⟨19, _⟩ => ⟨S65536x256, .f32⟩
  | .hbm, ⟨20, _⟩ => ⟨S256, .f32⟩
  | .hbm, ⟨21, _⟩ => ⟨S1x256, .f32⟩
  | .hbm, ⟨22, _⟩ => ⟨S65536x256, .f32⟩
  | .hbm, ⟨23, _⟩ => ⟨S65536x256, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  bcast_S65536x1_S65536x256_0_1 : S65536x1.BroadcastsInDim S65536x256 (![0, 1] : Fin 2 → Fin S65536x256.rank)
  shapeCasts_S256x1_S256 : S256x1.ShapeCasts S256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  dot_S65536x256_S256x1_S65536x1_1_0_0_1_n_n_wf : DotDims.WF S65536x256 S256x1 S65536x1 [1] [0] [0] [1] [] []

variable [Facts₀]

def dot_S65536x256_S256x1_S65536x1_1_0_0_1_n_n : DotDims S65536x256 S256x1 S65536x1 where
  lhsContracting := [1]
  rhsContracting := [0]
  lhsNonContracting := [0]
  rhsNonContracting := [1]
  lhsBatch := []
  rhsBatch := []
  wf := dot_S65536x256_S256x1_S65536x1_1_0_0_1_n_n_wf

class Facts : Prop extends Facts₀ where

variable [Facts]
-- ==== Proof.Spec.lean ====
/-
  The shared unit's two outputs as functions of the argument arrays, index by index, over the extended reals.

  Row b of the knowledge-graph features is contracted against the SUM of two weight columns,
      s(b) = Σ_k kg[b,k] · (wa[k,0] + wb[k,0]),
  and the output at (b, q) is the image feature scaled by that row's scalar, plus the bias column read at q:
      out[b,q] = cnn[b,q] · s(b) + bias[q,0].
  Both outputs have this form, with their own pair of weight columns and their own bias.
-/
import Idealize.ShloMosaic.PureOps.Ideal
import Idealize.ShloMosaic.Lib.ValueIdx

noncomputable section

open scoped BigOperators

namespace Cert.SharedUnit

open Idealize.ShloMosaic Idealize.ShloMosaic.ValueIdx

/-- The combined weight at feature `k`: the two weight columns added. -/
def weightAt (wa wb : (⟨2, ![256, 1]⟩ : Shape).Idx → EReal) (k : Fin 256) : EReal :=
  wa (ix2 k (0 : Fin 1)) + wb (ix2 k (0 : Fin 1))

/-- The scalar of row `b`: the row of `kg` against the combined weights. -/
def rowScalar (kg : (⟨2, ![65536, 256]⟩ : Shape).Idx → EReal) (wa wb : (⟨2, ![256, 1]⟩ : Shape).Idx → EReal)
    (b : Fin 65536) : EReal :=
  ∑ k : Fin 256, kg (ix2 b k) * weightAt wa wb k

/-- The output at row `b`, column `q`. -/
def outAt (cnn kg : (⟨2, ![65536, 256]⟩ : Shape).Idx → EReal) (wa wb bias : (⟨2, ![256, 1]⟩ : Shape).Idx → EReal)
    (b : Fin 65536) (q : Fin 256) : EReal :=
  cnn (ix2 b q) * rowScalar kg wa wb b + bias (ix2 q (0 : Fin 1))

/-- The whole output array. -/
def out (cnn kg : (⟨2, ![65536, 256]⟩ : Shape).Idx → EReal) (wa wb bias : (⟨2, ![256, 1]⟩ : Shape).Idx → EReal) :
    (⟨2, ![65536, 256]⟩ : Shape).Idx → EReal :=
  fun i => outAt cnn kg wa wb bias (i 0) (i 1)

theorem out_ix2 (cnn kg : (⟨2, ![65536, 256]⟩ : Shape).Idx → EReal) (wa wb bias : (⟨2, ![256, 1]⟩ : Shape).Idx → EReal)
    (b : Fin 65536) (q : Fin 256) : out cnn kg wa wb bias (ix2 b q) = outAt cnn kg wa wb bias b q := rfl

end Cert.SharedUnit

end
-- ==== Proof.RefValue.lean ====
/-
  The reference's two results, read index by index, are the shared unit's outputs.

  The reference contracts row b of the knowledge-graph features against the sum of two weight columns as a matrix
  product with a [256,1] operand, spreads the resulting column over the 256 lanes, scales the image features by it,
  and adds the bias column re-laid as a row and spread over the rows. At (b, q) that is
      cnn[b,q] · Σ_k kg[b,k] · (wa[k,0] + wb[k,0]) + bias[q,0].
-/
import proofs.«114717_j36386962932119_2_alg».proof.Proof.Gen.ReferenceIdeal.Read
import proofs.«114717_j36386962932119_2_alg».proof.Proof.Spec

noncomputable section

open scoped BigOperators

namespace Cert.SharedUnit.Ref

open Cert.ReferenceIdeal Cert.ReferenceIdeal.Gen Cert.ReferenceIdeal.Read
open Idealize.ShloMosaic Idealize.ShloMosaic.TcCoe Idealize.ShloMosaic.ValueIdx

/-- Where the matrix product's left operand is read for output row `b`, term `k`: entry (b, k). -/
theorem lhs_at (b : Fin 65536) (q : Fin 256) (k : Fin 256) :
    lidx_main_v1 (idx_main_v4 (ix2 b q)) k = ix2 b k :=
  funext fun a => Fin.ext (by match a with | ⟨0, _⟩ => rfl | ⟨1, _⟩ => rfl)

/-- Where its right operand is read: entry (k, 0) of the summed weight column. -/
theorem rhs_at (b : Fin 65536) (q : Fin 256) (k : Fin 256) :
    ridx_main_v1 (idx_main_v4 (ix2 b q)) k = ix2 k (0 : Fin 1) :=
  funext fun a => Fin.ext (by match a with | ⟨0, _⟩ => rfl | ⟨1, _⟩ => rfl)

/-- Where the bias is read for output column `q`: entry (q, 0) of the bias column. -/
theorem bias_at (b : Fin 65536) (q : Fin 256) :
    idx_main_v6 (idx_main_v7 (idx_main_v8 (ix2 b q))) = ix2 q (0 : Fin 1) :=
  funext fun a => Fin.ext (by
    match a with
    | ⟨0, _⟩ => show q.val / 1 = q.val; exact Nat.div_one _
    | ⟨1, _⟩ => rfl)

/-- The first result is the shared unit's output over (wa, wb, bias) = (arguments 2, 3, 6). -/
theorem first_eq (x0 x1 : (⟨S65536x256, .f32⟩ : BufTy).Contents (Elt Ideal))
    (x2 x3 x6 : (⟨S256x1, .f32⟩ : BufTy).Contents (Elt Ideal)) :
    val_main_v9 (F := Ideal) x0 x1 x2 x3 x6 = Cert.SharedUnit.out x0 x1 x2 x3 x6 := by
  funext i
  obtain ⟨b, q, rfl⟩ : ∃ (b : Fin 65536) (q : Fin 256), i = ix2 b q := ⟨i 0, i 1, eq_ix2 i⟩
  rw [val_main_v9_apply, val_main_v5_apply, val_main_v4_apply, val_main_v1_apply, val_main_v8_apply,
    val_main_v7_apply, val_main_v6_apply]
  simp only [val_main_v0_apply, lhs_at, rhs_at, bias_at, Ideal.addf_def, Ideal.mulf_def]
  rfl

/-- The second result reads its operands at the same places. -/
theorem lhs_at' (b : Fin 65536) (q : Fin 256) (k : Fin 256) :
    lidx_main_v3 (idx_main_v10 (ix2 b q)) k = ix2 b k :=
  funext fun a => Fin.ext (by match a with | ⟨0, _⟩ => rfl | ⟨1, _⟩ => rfl)

theorem rhs_at' (b : Fin 65536) (q : Fin 256) (k : Fin 256) :
    ridx_main_v3 (idx_main_v10 (ix2 b q)) k = ix2 k (0 : Fin 1) :=
  funext fun a => Fin.ext (by match a with | ⟨0, _⟩ => rfl | ⟨1, _⟩ => rfl)

theorem bias_at' (b : Fin 65536) (q : Fin 256) :
    idx_main_v12 (idx_main_v13 (idx_main_v14 (ix2 b q))) = ix2 q (0 : Fin 1) :=
  funext fun a => Fin.ext (by
    match a with
    | ⟨0, _⟩ => show q.val / 1 = q.val; exact Nat.div_one _
    | ⟨1, _⟩ => rfl)

/-- The second result is the shared unit's output over (wa, wb, bias) = (arguments 4, 5, 7). -/
theorem second_eq (x0 x1 : (⟨S65536x256, .f32⟩ : BufTy).Contents (Elt Ideal))
    (x4 x5 x7 : (⟨S256x1, .f32⟩ : BufTy).Contents (Elt Ideal)) :
    val_main_v15 (F := Ideal) x0 x1 x4 x5 x7 = Cert.SharedUnit.out x0 x1 x4 x5 x7 := by
  funext i
  obtain ⟨b, q, rfl⟩ : ∃ (b : Fin 65536) (q : Fin 256), i = ix2 b q := ⟨i 0, i 1, eq_ix2 i⟩
  rw [val_main_v15_apply, val_main_v11_apply, val_main_v10_apply, val_main_v3_apply, val_main_v14_apply,
    val_main_v13_apply, val_main_v12_apply]
  simp only [val_main_v2_apply, lhs_at', rhs_at', bias_at', Ideal.addf_def, Ideal.mulf_def]
  rfl

end Cert.SharedUnit.Ref

end
-- ==== Proof.BlockValue.lean ====
/-
  What one grid point leaves in an output block, read at (p, q) of the block.

  The body multiplies the point's [2048,256] block of knowledge-graph rows by the weight row spread over the rows,
  sums each row over its 256 lanes, spreads that column back over the lanes, scales the block of image rows by it and
  adds the bias row spread over the rows. At (p, q):
      cnn[p,q] · Σ_k kg[p,k] · w[0,k] + bias[0,q].
  The lane sum starts from the zero word, which is the sum's neutral element, so nothing is added to it.
-/
import proofs.«114717_j36386962932119_2_alg».proof.Proof.Gen.KernelIdeal.Value
import Idealize.ShloMosaic.Lib.ValueIdx
import Idealize.ShloMosaic.Lib.ValueLayout
import Idealize.ShloMosaic.PureOps.Ideal.Laws

noncomputable section

open scoped BigOperators

namespace Cert.SharedUnit.Block

open Cert.KernelIdeal Cert.KernelIdeal.Gen
open Idealize.ShloMosaic Idealize.ShloMosaic.TcCoe Idealize.ShloMosaic.ValueIdx

/-- A sum over the lanes of a [2048,256] vector, from the neutral word, at row `p` is the plain sum of that row. -/
theorem lane_sum (X : FVec Ideal S2048x256 .f32) (h : S2048x256.Reduces [1] S2048) (hφ : FKind.Formats .f32)
    (hacc : (0x00000000#32 : BitVec 32) = FKind.add.neutral .f32 hφ) (p : Fin 2048) :
    multiReduction .add [1] S2048 X 0x00000000#32 h hφ hacc (ix1 p) = ∑ k : Fin 256, X (ix2 p k) :=
  (Ideal.multiReduction_add_single X 0x00000000#32 h hφ hacc (ix1 p)).trans
    (Finset.sum_congr rfl fun k _ => congrArg X (funext fun a => by match a with | ⟨0, _⟩ => rfl | ⟨1, _⟩ => rfl))

/-- The first output's block at (p, q), over any loaded blocks. -/
theorem first_at (P0 P1 : Vec Ideal S2048x256 .f32) (P2 P3 : Vec Ideal S1x256 .f32) (p : Fin 2048) (q : Fin 256) :
    Cert.KernelIdeal.Value.E6 P0 P1 P2 P3 (ix2 p q)
      = P0 (ix2 p q) * (∑ k : Fin 256, P1 (ix2 p k) * P2 (ix2 (0 : Fin 1) k)) + P3 (ix2 (0 : Fin 1) q) := by
  have e0 : Cert.KernelIdeal.Value.ix6_0 (ix2 p q) = ix2 p q :=
    funext fun a => Fin.ext (by match a with | ⟨0, _⟩ => rfl | ⟨1, _⟩ => rfl)
  have e1 : Cert.KernelIdeal.Value.ix6_1 (ix2 p q) = ix1 p :=
    funext fun a => Fin.ext (by match a with | ⟨0, _⟩ => rfl)
  have e2 : Cert.KernelIdeal.Value.ix6_2 (ix2 p q) = ix2 (0 : Fin 1) q :=
    funext fun a => Fin.ext (by match a with | ⟨0, _⟩ => rfl | ⟨1, _⟩ => rfl)
  show P0 (Cert.KernelIdeal.Value.ix6_0 (ix2 p q))
        * (multiReduction (F := Ideal) .add [1] S2048 (mulf P1 (broadcastTo S2048x256 (shapeCast S1x256 P2 shapeCasts_S1x256_S1x256) broadcasts_S1x256_S2048x256)) 0x00000000#32 reduces_S2048x256_S2048 (.inl rfl) rfl) (Cert.KernelIdeal.Value.ix6_1 (ix2 p q))
        + P3 (Cert.KernelIdeal.Value.ix6_2 (ix2 p q)) = _
  rw [e0, e1, e2]
  refine congrArg (fun z => P0 (ix2 p q) * z + P3 (ix2 (0 : Fin 1) q)) ?_
  refine (lane_sum _ reduces_S2048x256_S2048 (.inl rfl) rfl p).trans (Finset.sum_congr rfl fun k _ => ?_)
  rw [mulf_apply, broadcastTo_1b_ab_apply, shapeCast_self]

/-- The second output's block at (p, q): the same function of its own loads. -/
theorem second_at (P0 P1 : Vec Ideal S2048x256 .f32) (P2 P3 : Vec Ideal S1x256 .f32) (p : Fin 2048) (q : Fin 256) :
    Cert.KernelIdeal.Value.E7 P0 P1 P2 P3 (ix2 p q)
      = P0 (ix2 p q) * (∑ k : Fin 256, P1 (ix2 p k) * P2 (ix2 (0 : Fin 1) k)) + P3 (ix2 (0 : Fin 1) q) :=
  first_at P0 P1 P2 P3 p q

theorem zero_off : (![0, 0] : Fin 2 → Nat) = fun _ => 0 := funext fun a => by fin_cases a <;> rfl

/-- A load through the whole of a [2048,256] buffer is the buffer's contents. -/
theorem load_big (X : Vec Ideal S2048x256 .f32) : View.ld X r0_0 = X :=
  View.ld_unit_zero (S := S2048x256) zero_off _ X

/-- A load through the whole of a [1,256] buffer is the buffer's contents. -/
theorem load_row (X : Vec Ideal S1x256 .f32) : View.ld X r0_1 = X :=
  View.ld_unit_zero (S := S1x256) zero_off _ X

/-- What the body leaves in the first output's staging buffer, at (p, q), from the six input blocks: every load and
    the one store go through the whole buffer, so the loads are the blocks themselves. -/
theorem first_block (x0 x1 : Vec Ideal S2048x256 .f32) (x2 x3 x4 x5 : Vec Ideal S1x256 .f32) (p : Fin 2048) (q : Fin 256) :
    out0_6 x0 x1 x2 x3 x4 x5 (ix2 p q)
      = x0 (ix2 p q) * (∑ k : Fin 256, x1 (ix2 p k) * x2 (ix2 (0 : Fin 1) k)) + x4 (ix2 (0 : Fin 1) q) := by
  unfold out0_6
  refine (Cert.KernelIdeal.Value.canon6_eq _ _ _ _ (ix2 p q)).trans ?_
  refine (first_at _ _ _ _ p q).trans ?_
  rw [load_big x0, load_big x1, load_row x2, load_row x4]

/-- The same for the second output, over its own weight row and bias row. -/
theorem second_block (x0 x1 : Vec Ideal S2048x256 .f32) (x2 x3 x4 x5 : Vec Ideal S1x256 .f32) (p : Fin 2048) (q : Fin 256) :
    out0_7 x0 x1 x2 x3 x4 x5 (ix2 p q)
      = x0 (ix2 p q) * (∑ k : Fin 256, x1 (ix2 p k) * x3 (ix2 (0 : Fin 1) k)) + x5 (ix2 (0 : Fin 1) q) := by
  unfold out0_7
  refine (Cert.KernelIdeal.Value.canon7_eq _ _ _ _ (ix2 p q)).trans ?_
  refine (second_at _ _ _ _ p q).trans ?_
  rw [load_big x0, load_big x1, load_row x3, load_row x5]

end Cert.SharedUnit.Block

end
-- ==== Proof.KernelValue.lean ====
/-
  The kernel's two result arrays after its run are the shared unit's outputs of the argument arrays.

  The grid has 32 points. Point t stages rows 2048·t … 2048·t + 2047 of the image features and of the
  knowledge-graph features, and the whole of each of the four [1,256] rows the host prepared before the call: the two
  weight rows (each the sum of two [256,1] weight columns, re-laid as a row) and the two bias rows (each a [256,1] bias
  column re-laid as a row). It writes back rows 2048·t … 2048·t + 2047 of both results. So entry (p, q) of what point t
  writes is entry (2048·t + p, q) of the output function, and the 32 blocks of 2048 rows cover the 65536 rows.
-/
import proofs.«114717_j36386962932119_2_alg».proof.Proof.Gen.KernelIdeal.Value
import proofs.«114717_j36386962932119_2_alg».proof.Proof.Spec
import proofs.«114717_j36386962932119_2_alg».proof.Proof.BlockValue
import Idealize.ShloMosaic.Lib.Pipeline.Value
import Idealize.ShloMosaic.Lib.StableHlo.Run
import Idealize.ShloMosaic.Lib.ValueIdx

noncomputable section

open scoped BigOperators

namespace Cert.SharedUnit.Kernel

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The printed index maps at the 32 grid points: the four big windows move down the rows with the point, the four
    [1,256] rows stay at block (0, 0). -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-! ## The two big input blocks -/

/-- Block t of the image features at (p, q) is the argument at (2048·t + p, q). -/
theorem cnn_block (c : Dev nD) (t : Fin cfg0.N) (p : Fin 2048) (q : Fin 256) (b : Fin 65536)
    (hb : b.val = 2048 * t.val + p.val) :
    (iblk m c 0 t : Vec Ideal S2048x256 .f32) (ix2 p q)
      = (m ((c : Thread nD τ).loc main_arg0) : S65536x256.Idx → EReal) (ix2 b q) := by
  obtain ⟨h0, h1, -⟩ := block_indices t
  unfold iblk
  rw [View.read_apply]
  show V m c main_arg0 _ = _
  rw [V_main_arg0]
  refine congrArg _ (funext fun a => Fin.ext ?_)
  match a with
  | ⟨0, _⟩ => show win0_0.index t (0 : Fin 2) * 2048 + 1 * p.val = b.val; omega
  | ⟨1, _⟩ => show win0_0.index t (1 : Fin 2) * 256 + 1 * q.val = q.val; omega

/-- Block t of the knowledge-graph features at (p, k) is the argument at (2048·t + p, k). -/
theorem kg_block (c : Dev nD) (t : Fin cfg0.N) (p : Fin 2048) (k : Fin 256) (b : Fin 65536)
    (hb : b.val = 2048 * t.val + p.val) :
    (iblk m c 1 t : Vec Ideal S2048x256 .f32) (ix2 p k)
      = (m ((c : Thread nD τ).loc main_arg1) : S65536x256.Idx → EReal) (ix2 b k) := by
  obtain ⟨-, -, h0, h1, -⟩ := block_indices t
  unfold iblk
  rw [View.read_apply]
  show V m c main_arg1 _ = _
  rw [V_main_arg1]
  refine congrArg _ (funext fun a => Fin.ext ?_)
  match a with
  | ⟨0, _⟩ => show win0_1.index t (0 : Fin 2) * 2048 + 1 * p.val = b.val; omega
  | ⟨1, _⟩ => show win0_1.index t (1 : Fin 2) * 256 + 1 * k.val = k.val; omega

/-! ## The four rows the host prepared before the call -/

/-- The first weight row as the region finds it: the sum of the two weight columns, re-laid as a row. -/
theorem weight_row_first (c : Dev nD) :
    (V m c main_v1 : S1x256.Idx → EReal)
      = shapeCast S1x256 (@addf Ideal _ S256x1 .f32 (m ((c : Thread nD τ).loc main_arg2))
          (m ((c : Thread nD τ).loc main_arg3))) shapeCasts_S256x1_S1x256 := by
  dsimp only [Gen.V, Gen.hostOps0]; after_results; rfl

/-- The second weight row: the sum of the other two weight columns, re-laid as a row. -/
theorem weight_row_second (c : Dev nD) :
    (V m c main_v3 : S1x256.Idx → EReal)
      = shapeCast S1x256 (@addf Ideal _ S256x1 .f32 (m ((c : Thread nD τ).loc main_arg4))
          (m ((c : Thread nD τ).loc main_arg5))) shapeCasts_S256x1_S1x256 := by
  dsimp only [Gen.V, Gen.hostOps0]; after_results; rfl

/-- The first bias row: the first bias column re-laid as a row. -/
theorem bias_row_first (c : Dev nD) :
    (V m c main_v4 : S1x256.Idx → EReal)
      = shapeCast S1x256 (m ((c : Thread nD τ).loc main_arg6) : FVec Ideal S256x1 .f32) shapeCasts_S256x1_S1x256 := by
  dsimp only [Gen.V, Gen.hostOps0]; after_results; rfl

/-- The second bias row: the second bias column re-laid as a row. -/
theorem bias_row_second (c : Dev nD) :
    (V m c main_v5 : S1x256.Idx → EReal)
      = shapeCast S1x256 (m ((c : Thread nD τ).loc main_arg7) : FVec Ideal S256x1 .f32) shapeCasts_S256x1_S1x256 := by
  dsimp only [Gen.V, Gen.hostOps0]; after_results; rfl

/-- A [256,1] column re-laid as a [1,256] row reads, at (0, k), the column at (k, 0): both are position k in row-major order. -/
theorem column_as_row (x : S256x1.Idx → EReal) (h : S256x1.ShapeCasts S1x256) (k : Fin 256) :
    shapeCast S1x256 x h (ix2 (0 : Fin 1) k) = x (ix2 k (0 : Fin 1)) := by
  refine shapeCast_apply x h (ix2 (0 : Fin 1) k) (ix2 k (0 : Fin 1)) ?_
  rw [Shape.rowMajor_val_two, Shape.rowMajor_val_two]
  show k.val * 1 + 0 = 0 * 256 + k.val
  omega

/-- Every point's block of the first weight row, at (0, k), is the sum of the two weight columns at (k, 0). -/
theorem weight_first_at (c : Dev nD) (t : Fin cfg0.N) (k : Fin 256) :
    (iblk m c 2 t : Vec Ideal S1x256 .f32) (ix2 (0 : Fin 1) k)
      = Cert.SharedUnit.weightAt (m ((c : Thread nD τ).loc main_arg2)) (m ((c : Thread nD τ).loc main_arg3)) k := by
  obtain ⟨-, -, -, -, h0, h1, -⟩ := block_indices t
  have e : ((cfg0.win 2).blk t).view.emb (ix2 (0 : Fin 1) k) = ix2 (0 : Fin 1) k := funext fun a => Fin.ext (by
    match a with
    | ⟨0, _⟩ => show win0_2.index t (0 : Fin 2) * 1 + 1 * 0 = 0; omega
    | ⟨1, _⟩ => show win0_2.index t (1 : Fin 2) * 256 + 1 * k.val = k.val; omega)
  unfold iblk
  rw [View.read_apply]
  show (V m c main_v1 : S1x256.Idx → EReal) _ = _
  rw [e, weight_row_first, column_as_row]
  rfl

/-- Every point's block of the second weight row, at (0, k). -/
theorem weight_second_at (c : Dev nD) (t : Fin cfg0.N) (k : Fin 256) :
    (iblk m c 3 t : Vec Ideal S1x256 .f32) (ix2 (0 : Fin 1) k)
      = Cert.SharedUnit.weightAt (m ((c : Thread nD τ).loc main_arg4)) (m ((c : Thread nD τ).loc main_arg5)) k := by
  obtain ⟨-, -, -, -, -, -, h0, h1, -⟩ := block_indices t
  have e : ((cfg0.win 3).blk t).view.emb (ix2 (0 : Fin 1) k) = ix2 (0 : Fin 1) k := funext fun a => Fin.ext (by
    match a with
    | ⟨0, _⟩ => show win0_3.index t (0 : Fin 2) * 1 + 1 * 0 = 0; omega
    | ⟨1, _⟩ => show win0_3.index t (1 : Fin 2) * 256 + 1 * k.val = k.val; omega)
  unfold iblk
  rw [View.read_apply]
  show (V m c main_v3 : S1x256.Idx → EReal) _ = _
  rw [e, weight_row_second, column_as_row]
  rfl

/-- Every point's block of the first bias row, at (0, q), is the first bias column at (q, 0). -/
theorem bias_first_at (c : Dev nD) (t : Fin cfg0.N) (q : Fin 256) :
    (iblk m c 4 t : Vec Ideal S1x256 .f32) (ix2 (0 : Fin 1) q)
      = ((m ((c : Thread nD τ).loc main_arg6)) : S256x1.Idx → EReal) (ix2 q (0 : Fin 1)) := by
  obtain ⟨-, -, -, -, -, -, -, -, h0, h1, -⟩ := block_indices t
  have e : ((cfg0.win 4).blk t).view.emb (ix2 (0 : Fin 1) q) = ix2 (0 : Fin 1) q := funext fun a => Fin.ext (by
    match a with
    | ⟨0, _⟩ => show win0_4.index t (0 : Fin 2) * 1 + 1 * 0 = 0; omega
    | ⟨1, _⟩ => show win0_4.index t (1 : Fin 2) * 256 + 1 * q.val = q.val; omega)
  unfold iblk
  rw [View.read_apply]
  show (V m c main_v4 : S1x256.Idx → EReal) _ = _
  rw [e, bias_row_first, column_as_row]

/-- Every point's block of the second bias row, at (0, q), is the second bias column at (q, 0). -/
theorem bias_second_at (c : Dev nD) (t : Fin cfg0.N) (q : Fin 256) :
    (iblk m c 5 t : Vec Ideal S1x256 .f32) (ix2 (0 : Fin 1) q)
      = ((m ((c : Thread nD τ).loc main_arg7)) : S256x1.Idx → EReal) (ix2 q (0 : Fin 1)) := by
  obtain ⟨-, -, -, -, -, -, -, -, -, -, h0, h1, -⟩ := block_indices t
  have e : ((cfg0.win 5).blk t).view.emb (ix2 (0 : Fin 1) q) = ix2 (0 : Fin 1) q := funext fun a => Fin.ext (by
    match a with
    | ⟨0, _⟩ => show win0_5.index t (0 : Fin 2) * 1 + 1 * 0 = 0; omega
    | ⟨1, _⟩ => show win0_5.index t (1 : Fin 2) * 256 + 1 * q.val = q.val; omega)
  unfold iblk
  rw [View.read_apply]
  show (V m c main_v5 : S1x256.Idx → EReal) _ = _
  rw [e, bias_row_second, column_as_row]

/-! ## What a point writes back -/

/-- Entry (p, q) of what point t leaves in the first output's buffer is the first output at (2048·t + p, q). -/
theorem first_point (c : Dev nD) (t : Fin cfg0.N) (j : S2048x256.Idx) :
    out0_6 (iblk m c 0 t) (iblk m c 1 t) (iblk m c 2 t) (iblk m c 3 t) (iblk m c 4 t) (iblk m c 5 t) j
      = Cert.SharedUnit.out (m ((c : Thread nD τ).loc main_arg0)) (m ((c : Thread nD τ).loc main_arg1)) (m ((c : Thread nD τ).loc main_arg2)) (m ((c : Thread nD τ).loc main_arg3)) (m ((c : Thread nD τ).loc main_arg6)) (((cfg0.win 6).blk t).view.emb j) := by
  obtain ⟨p, q, rfl⟩ : ∃ (p : Fin 2048) (q : Fin 256), j = ix2 p q := ⟨j 0, j 1, eq_ix2 j⟩
  obtain ⟨-, -, -, -, -, -, -, -, -, -, -, -, h0, h1, -⟩ := block_indices t
  have hN : cfg0.N = 32 := N_0
  have hlt : 2048 * t.val + p.val < 65536 := by have := t.isLt; have := p.isLt; omega
  have e : ((cfg0.win 6).blk t).view.emb (ix2 p q) = ix2 (⟨2048 * t.val + p.val, hlt⟩ : Fin 65536) q :=
    funext fun a => Fin.ext (by
      match a with
      | ⟨0, _⟩ => show win0_6.index t (0 : Fin 2) * 2048 + 1 * p.val = 2048 * t.val + p.val; omega
      | ⟨1, _⟩ => show win0_6.index t (1 : Fin 2) * 256 + 1 * q.val = q.val; omega)
  rw [e, Cert.SharedUnit.out_ix2]
  refine (Cert.SharedUnit.Block.first_block _ _ _ _ _ _ p q).trans ?_
  unfold Cert.SharedUnit.outAt Cert.SharedUnit.rowScalar
  rw [cnn_block m c t p q ⟨2048 * t.val + p.val, hlt⟩ rfl, bias_first_at m c t q,
    Finset.sum_congr rfl fun k _ => by rw [kg_block m c t p k ⟨2048 * t.val + p.val, hlt⟩ rfl, weight_first_at m c t k]]

/-- Entry (p, q) of what point t leaves in the second output's buffer is the second output at (2048·t + p, q). -/
theorem second_point (c : Dev nD) (t : Fin cfg0.N) (j : S2048x256.Idx) :
    out0_7 (iblk m c 0 t) (iblk m c 1 t) (iblk m c 2 t) (iblk m c 3 t) (iblk m c 4 t) (iblk m c 5 t) j
      = Cert.SharedUnit.out (m ((c : Thread nD τ).loc main_arg0)) (m ((c : Thread nD τ).loc main_arg1)) (m ((c : Thread nD τ).loc main_arg4)) (m ((c : Thread nD τ).loc main_arg5)) (m ((c : Thread nD τ).loc main_arg7)) (((cfg0.win 7).blk t).view.emb j) := by
  obtain ⟨p, q, rfl⟩ : ∃ (p : Fin 2048) (q : Fin 256), j = ix2 p q := ⟨j 0, j 1, eq_ix2 j⟩
  obtain ⟨-, -, -, -, -, -, -, -, -, -, -, -, -, -, h0, h1⟩ := block_indices t
  have hN : cfg0.N = 32 := N_0
  have hlt : 2048 * t.val + p.val < 65536 := by have := t.isLt; have := p.isLt; omega
  have e : ((cfg0.win 7).blk t).view.emb (ix2 p q) = ix2 (⟨2048 * t.val + p.val, hlt⟩ : Fin 65536) q :=
    funext fun a => Fin.ext (by
      match a with
      | ⟨0, _⟩ => show win0_7.index t (0 : Fin 2) * 2048 + 1 * p.val = 2048 * t.val + p.val; omega
      | ⟨1, _⟩ => show win0_7.index t (1 : Fin 2) * 256 + 1 * q.val = q.val; omega)
  rw [e, Cert.SharedUnit.out_ix2]
  refine (Cert.SharedUnit.Block.second_block _ _ _ _ _ _ p q).trans ?_
  unfold Cert.SharedUnit.outAt Cert.SharedUnit.rowScalar
  rw [cnn_block m c t p q ⟨2048 * t.val + p.val, hlt⟩ rfl, bias_second_at m c t q,
    Finset.sum_congr rfl fun k _ => by rw [kg_block m c t p k ⟨2048 * t.val + p.val, hlt⟩ rfl, weight_second_at m c t k]]

/-- What point t writes back to the first result is block t of the first output. -/
theorem first_flushed (c : Dev nD) (t : Fin cfg0.N) :
    (dats m 0 c).flushed 6 t = ((cfg0.win 6).blk t).view.read (Elt Ideal)
      (Cert.SharedUnit.out (m ((c : Thread nD τ).loc main_arg0)) (m ((c : Thread nD τ).loc main_arg1)) (m ((c : Thread nD τ).loc main_arg2)) (m ((c : Thread nD τ).loc main_arg3)) (m ((c : Thread nD τ).loc main_arg6))) := by
  rw [Cert.KernelIdeal.Value.flushed6]
  funext j
  exact first_point m c t j

/-- What point t writes back to the second result is block t of the second output. -/
theorem second_flushed (c : Dev nD) (t : Fin cfg0.N) :
    (dats m 0 c).flushed 7 t = ((cfg0.win 7).blk t).view.read (Elt Ideal)
      (Cert.SharedUnit.out (m ((c : Thread nD τ).loc main_arg0)) (m ((c : Thread nD τ).loc main_arg1)) (m ((c : Thread nD τ).loc main_arg4)) (m ((c : Thread nD τ).loc main_arg5)) (m ((c : Thread nD τ).loc main_arg7))) := by
  rw [Cert.KernelIdeal.Value.flushed7]
  funext j
  exact second_point m c t j

/-! ## The 32 blocks of 2048 rows cover the 65536 rows -/

/-- An index is in point t's block of the first result iff each coordinate is in the block's range on its axis. -/
theorem mem_first_block (t : Fin cfg0.N) (i : S65536x256.Idx) :
    i ∈ ((cfg0.win 6).blk t).view.set ↔ ∀ a : Fin 2, win0_6.index t a * S2048x256.size a ≤ (i a).val ∧ (i a).val < win0_6.index t a * S2048x256.size a + S2048x256.size a := by
  show i ∈ ((View.whole main_v6_0).slice (win0_6.rect t)).set ↔ _
  rw [View.set_slice_whole, Rect.mem_set_unit]
  exact Iff.rfl

theorem mem_second_block (t : Fin cfg0.N) (i : S65536x256.Idx) :
    i ∈ ((cfg0.win 7).blk t).view.set ↔ ∀ a : Fin 2, win0_7.index t a * S2048x256.size a ≤ (i a).val ∧ (i a).val < win0_7.index t a * S2048x256.size a + S2048x256.size a := by
  show i ∈ ((View.whole main_v6_1).slice (win0_7.rect t)).set ↔ _
  rw [View.set_slice_whole, Rect.mem_set_unit]
  exact Iff.rfl

/-- Row r lies in the block of point r / 2048. -/
theorem first_covered (i : S65536x256.Idx) :
    ∃ t : Fin cfg0.N, (cfg0.win 6).flush t = true ∧ i ∈ ((cfg0.win 6).blk t).view.set := by
  have hN : cfg0.N = 32 := N_0
  have hi0 : (i 0).val < 65536 := (i 0).isLt
  have hi1 : (i 1).val < 256 := (i 1).isLt
  obtain ⟨t, ht⟩ : ∃ t : Fin cfg0.N, t.val = (i 0).val / 2048 := ⟨⟨(i 0).val / 2048, by omega⟩, rfl⟩
  obtain ⟨-, -, -, -, -, -, -, -, -, -, -, -, h0, h1, -⟩ := block_indices t
  refine ⟨t, flush0_6 t, ?_⟩
  rw [mem_first_block]
  intro a
  match a with
  | ⟨0, _⟩ => show win0_6.index t (0 : Fin 2) * 2048 ≤ (i 0).val ∧ (i 0).val < win0_6.index t (0 : Fin 2) * 2048 + 2048; omega
  | ⟨1, _⟩ => show win0_6.index t (1 : Fin 2) * 256 ≤ (i 1).val ∧ (i 1).val < win0_6.index t (1 : Fin 2) * 256 + 256; omega

theorem second_covered (i : S65536x256.Idx) :
    ∃ t : Fin cfg0.N, (cfg0.win 7).flush t = true ∧ i ∈ ((cfg0.win 7).blk t).view.set := by
  have hN : cfg0.N = 32 := N_0
  have hi0 : (i 0).val < 65536 := (i 0).isLt
  have hi1 : (i 1).val < 256 := (i 1).isLt
  obtain ⟨t, ht⟩ : ∃ t : Fin cfg0.N, t.val = (i 0).val / 2048 := ⟨⟨(i 0).val / 2048, by omega⟩, rfl⟩
  obtain ⟨-, -, -, -, -, -, -, -, -, -, -, -, -, -, h0, h1⟩ := block_indices t
  refine ⟨t, flush0_7 t, ?_⟩
  rw [mem_second_block]
  intro a
  match a with
  | ⟨0, _⟩ => show win0_7.index t (0 : Fin 2) * 2048 ≤ (i 0).val ∧ (i 0).val < win0_7.index t (0 : Fin 2) * 2048 + 2048; omega
  | ⟨1, _⟩ => show win0_7.index t (1 : Fin 2) * 256 ≤ (i 1).val ∧ (i 1).val < win0_7.index t (1 : Fin 2) * 256 + 256; omega

/-! ## The result arrays, and the run -/

/-- After the run the first result array is the first output of the argument arrays. -/
theorem first_final (c : Dev nD) :
    (dats m 0 c).arrAt 6 cfg0.N = Cert.SharedUnit.out (m ((c : Thread nD τ).loc main_arg0)) (m ((c : Thread nD τ).loc main_arg1)) (m ((c : Thread nD τ).loc main_arg2)) (m ((c : Thread nD τ).loc main_arg3)) (m ((c : Thread nD τ).loc main_arg6)) :=
  (dats m 0 c).arrAt_eq_of_cover 6 _ (fun t _ => first_flushed m c t) first_covered

/-- After the run the second result array is the second output of the argument arrays. -/
theorem second_final (c : Dev nD) :
    (dats m 0 c).arrAt 7 cfg0.N = Cert.SharedUnit.out (m ((c : Thread nD τ).loc main_arg0)) (m ((c : Thread nD τ).loc main_arg1)) (m ((c : Thread nD τ).loc main_arg4)) (m ((c : Thread nD τ).loc main_arg5)) (m ((c : Thread nD τ).loc main_arg7)) :=
  (dats m 0 c).arrAt_eq_of_cover 7 _ (fun t _ => second_flushed m c t) second_covered

/-- Every weakly fair execution of the kernel's program terminates with both result arrays at the shared unit's
    outputs of the argument arrays, and the arguments unchanged. -/
theorem run : θ_run defs (onTc (τ := τ) (main (F := Ideal))) ⟨m, fun _ => 0, ρ⟩ fun r => ∀ c : Dev nD,
      r.2.mem ((c : Thread nD τ).loc main_v6_0) = Cert.SharedUnit.out (m ((c : Thread nD τ).loc main_arg0)) (m ((c : Thread nD τ).loc main_arg1)) (m ((c : Thread nD τ).loc main_arg2)) (m ((c : Thread nD τ).loc main_arg3)) (m ((c : Thread nD τ).loc main_arg6))
      ∧ r.2.mem ((c : Thread nD τ).loc main_v6_1) = Cert.SharedUnit.out (m ((c : Thread nD τ).loc main_arg0)) (m ((c : Thread nD τ).loc main_arg1)) (m ((c : Thread nD τ).loc main_arg4)) (m ((c : Thread nD τ).loc main_arg5)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (first_final m c), (h c).2.1.trans (second_final m c), (h c).2.2⟩)
    (Cert.KernelIdeal.Value.run_blocks m ρ)

end Cert.SharedUnit.Kernel

end
-- ==== Proof.lean ====
/-
  The shared unit (bilinear fusion collapsed to two per-row scalars): kernel against reference over the extended reals.

  For image features cnn and knowledge-graph features kg, both [65536,256], two pairs of [256,1] weight columns and two
  [256,1] bias columns, both programs compute, for each pair (wa, wb) with its bias,
      out[b,q] = cnn[b,q] · Σ_k kg[b,k] · (wa[k,0] + wb[k,0]) + bias[q,0].
  The kernel adds the weight columns and re-lays them (and the biases) as rows on the host, then, 2048 rows at a time,
  multiplies the kg rows by the weight row, sums each row over its lanes, scales the cnn rows by that column and adds
  the bias row. The reference forms the same row scalars as a matrix product with the summed [256,1] column and
  broadcasts. Term by term the two are the same sum in the same order, so no law of the extended reals beyond reading
  each operation at an index is needed, and the finiteness of the inputs is never used.

  Spec.lean states the output function; RefValue.lean reads the reference's results as that function; BlockValue.lean
  reads what one grid point leaves in an output block; KernelValue.lean reads the blocks off the argument arrays, shows
  the 32 blocks cover the result arrays, and restates the kernel's run. Below, the five claims.
-/
import proofs.«114717_j36386962932119_2_alg».proof.Defs
import proofs.«114717_j36386962932119_2_alg».proof.Proof.Gen.Kernel
import proofs.«114717_j36386962932119_2_alg».proof.Proof.Gen.Kernel.Skeleton
import proofs.«114717_j36386962932119_2_alg».proof.Proof.Gen.Kernel.Launch
import proofs.«114717_j36386962932119_2_alg».proof.Proof.Gen.Kernel.Points
import proofs.«114717_j36386962932119_2_alg».proof.Proof.Gen.Kernel.Frame
import proofs.«114717_j36386962932119_2_alg».proof.Proof.Gen.KernelIdeal
import proofs.«114717_j36386962932119_2_alg».proof.Proof.Gen.KernelIdeal.Skeleton
import proofs.«114717_j36386962932119_2_alg».proof.Proof.Gen.KernelIdeal.Launch
import proofs.«114717_j36386962932119_2_alg».proof.Proof.Gen.KernelIdeal.Points
import proofs.«114717_j36386962932119_2_alg».proof.Proof.Gen.KernelIdeal.Frame
import proofs.«114717_j36386962932119_2_alg».proof.Proof.Gen.ReferenceIdeal
import proofs.«114717_j36386962932119_2_alg».proof.Proof.Gen.KernelIdeal.Value
import proofs.«114717_j36386962932119_2_alg».proof.Proof.Gen.ReferenceIdeal.Run
import proofs.«114717_j36386962932119_2_alg».proof.Proof.Gen.ReferenceIdeal.Read
import proofs.«114717_j36386962932119_2_alg».proof.Proof.Gen.Pre_finite_inputs
import proofs.«114717_j36386962932119_2_alg».proof.Proof.Spec
import proofs.«114717_j36386962932119_2_alg».proof.Proof.RefValue
import proofs.«114717_j36386962932119_2_alg».proof.Proof.BlockValue
import proofs.«114717_j36386962932119_2_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernel_ideal : Cert.frame_KernelIdeal := fun m ρ _ => Cert.KernelIdeal.Gen.frame m ρ

/-- The idealized reference runs and leaves its arguments unchanged: its run with the results dropped. -/
theorem frame_reference_ideal : Cert.frame_ReferenceIdeal := fun m ρ _ =>
  (θ_run Cert.ReferenceIdeal.defs _ _).mono (fun _ h c => (h c).2.2)
    (Cert.ReferenceIdeal.Value.run (F := Ideal) m ρ)

/-- The idealization rewrote no operation of the kernel. -/
theorem preserves : Cert.preserves_Kernel_KernelIdeal := trivial

/-- Both programs end with both results at the shared unit's outputs of the (agreeing) argument arrays. -/
theorem algebraic : Cert.algebraic_KernelIdeal_ReferenceIdeal := by
  intro m ρ m' ρ' _ hagree
  refine ⟨_, _, Cert.SharedUnit.Kernel.run m ρ, ?_⟩
  refine (θ_run Cert.ReferenceIdeal.defs _ _).mono (fun _ h c => ?_)
    (Cert.ReferenceIdeal.Value.run (F := Ideal) m' ρ')
  obtain ⟨a0, a1, a2, a3, a4, a5, a6, a7⟩ := hagree c
  refine ⟨(h c).1.trans ?_, (h c).2.1.trans ?_, (h c).2.2⟩
  · rw [Cert.ReferenceIdeal.Read.val_main_v9_eq, Cert.SharedUnit.Ref.first_eq, a0, a1, a2, a3, a6]
  · rw [Cert.ReferenceIdeal.Read.val_main_v15_eq, Cert.SharedUnit.Ref.second_eq, a0, a1, a4, a5, a7]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
